-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8x512x512 32) (main_arg1 : IVec S8x512x512 32) (main_arg2 : FVec F S8 .f32) : IVec S_ 1 :=
  let main_v0 : FVec F S8 .f32 := Host.absf main_arg2
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  main_v3
-- ==== Kernel.lean ====
abbrev S8x512x512 : Shape := ⟨3, ![8, 512, 512]⟩
abbrev S8 : Shape := ⟨1, ![8]⟩
abbrev S8x262144 : Shape := ⟨2, ![8, 262144]⟩
abbrev S8x8 : Shape := ⟨2, ![8, 8]⟩
abbrev S8x16384 : Shape := ⟨2, ![8, 16384]⟩
abbrev S8x1 : Shape := ⟨2, ![8, 1]⟩
abbrev S_ : Shape := ⟨0, ![]⟩

abbrev nBuf : Space → Nat
  | .hbm => 25
  | .vmem => 6
  | .smem => 0
  | _ => 0

abbrev bufTy : (tb : Table) → Fin (tcTables nBuf tb) → BufTy
  | .hbm, ⟨0, _⟩ => ⟨S8x512x512, .i32⟩
  | .hbm, ⟨1, _⟩ => ⟨S8x512x512, .i32⟩
  | .hbm, ⟨2, _⟩ => ⟨S8, .f32⟩
  | .hbm, ⟨3, _⟩ => ⟨S8x262144, .i32⟩
  | .hbm, ⟨4, _⟩ => ⟨S8x262144, .i32⟩
  | .hbm, ⟨5, _⟩ => ⟨S8x8, .f32⟩
  | .hbm, ⟨6, _⟩ => ⟨S8x8, .f32⟩
  | .hbm, ⟨7, _⟩ => ⟨S_, .f32⟩
  | .hbm, ⟨8, _⟩ => ⟨S8x8, .f32⟩
  | .hbm, ⟨9, _⟩ => ⟨S8x8, .f32⟩
  | .hbm, ⟨10, _⟩ => ⟨S_, .f32⟩
  | .hbm, ⟨11, _⟩ => ⟨S8x8, .f32⟩
  | .hbm, ⟨12, _⟩ => ⟨S8x8, .f32⟩
  | .hbm, ⟨13, _⟩ => ⟨S_, .f32⟩
  | .hbm, ⟨14, _⟩ => ⟨S8x8, .f32⟩
  | .hbm, ⟨15, _⟩ => ⟨S8x8, .f32⟩
  | .hbm, ⟨16, _⟩ => ⟨S8x8, .f32⟩
  | .hbm, ⟨17, _⟩ => ⟨S_, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S_, .f32⟩
  | .local _ .vmem, ⟨0, _⟩ => ⟨S8x16384, .i32⟩
  | .local _ .vmem, ⟨1, _⟩ => ⟨S8x16384, .i32⟩
  | .local _ .vmem, ⟨2, _⟩ => ⟨S8x16384, .i32⟩
  | .local _ .vmem, ⟨3, _⟩ => ⟨S8x16384, .i32⟩
  | .local _ .vmem, ⟨4, _⟩ => ⟨S8x8, .f32⟩
  | .local _ .vmem, ⟨5, _⟩ => ⟨S8x8, .f32⟩
  | _, _ => ⟨S8x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8x512x512_S8x262144 : S8x512x512.ShapeCasts S8x262144
  inb_S8x8_S8x8_0_0 : ∀ a, (![0, 0] : Fin 2 → Nat) a + S8x8.size a ≤ S8x8.size a
  h_S8x8 : 0 < S8x8.numel
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  natLt_1_32 : 1 < 32
  reduces_S8x16384_S8 : S8x16384.Reduces [1] S8
  shapeCasts_S8_S8x1 : S8.ShapeCasts S8x1
  concatenates_S8x1_S8x1_S8x1_S8x1_S8x1_S8x1_S8x1_S8x1_S8x8_d1 : Shape.Concatenates [S8x1, S8x1, S8x1, S8x1, S8x1, S8x1, S8x1, S8x1] S8x8 1
  shapeCasts_S8x8_S8x8 : S8x8.ShapeCasts S8x8
  bcast_S_S8x8 : S_.BroadcastsInDim S8x8 (![] : Fin 0 → Fin S8x8.rank)
  reducesTo_S8x8_S8_d0 : S8x8.ReducesTo [0] S8
  h_S_ : 0 < S_.numel
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S8x262144.size a
  hwx0_0 : ∀ i : grid0.Coords, EltTy.bits .i32 = 32 ∨ (Rect.block (s := S8x262144) S8x16384.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S8x262144.size a
  hwx0_1 : ∀ i : grid0.Coords, EltTy.bits .i32 = 32 ∨ (Rect.block (s := S8x262144) S8x16384.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S8x8.size a
  hwx0_2 : ∀ i : grid0.Coords, EltTy.bits .f32 = 32 ∨ (Rect.block (s := S8x8) S8x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)

variable [Facts₀]

abbrev win0_0 : Pipeline.Window sig grid0 :=
  Pipeline.Window.ofSpec (Memref.whole main_v0) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x8.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x8.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8 : Shape := ⟨1, ![8]⟩
abbrev S8x262144 : Shape := ⟨2, ![8, 262144]⟩
abbrev S8x1x262144 : Shape := ⟨3, ![8, 1, 262144]⟩
abbrev S1x8x1 : Shape := ⟨3, ![1, 8, 1]⟩
abbrev S8x8x262144 : Shape := ⟨3, ![8, 8, 262144]⟩
abbrev S_ : Shape := ⟨0, ![]⟩
abbrev S8x8 : Shape := ⟨2, ![8, 8]⟩

abbrev nBuf : Space → Nat
  | .hbm => 45
  | .vmem => 0
  | .smem => 0
  | _ => 0

abbrev bufTy : (tb : Table) → Fin (tcTables nBuf tb) → BufTy
  | .hbm, ⟨0, _⟩ => ⟨S8x512x512, .i32⟩
  | .hbm, ⟨1, _⟩ => ⟨S8x512x512, .i32⟩
  | .hbm, ⟨2, _⟩ => ⟨S8, .f32⟩
  | .hbm, ⟨3, _⟩ => ⟨S8x262144, .i32⟩
  | .hbm, ⟨4, _⟩ => ⟨S8, .i32⟩
  | .hbm, ⟨5, _⟩ => ⟨S8x1x262144, .i32⟩
  | .hbm, ⟨6, _⟩ => ⟨S1x8x1, .i32⟩
  | .hbm, ⟨7, _⟩ => ⟨S8x8x262144, .i32⟩
  | .hbm, ⟨8, _⟩ => ⟨S8x8x262144, .i32⟩
  | .hbm, ⟨9, _⟩ => ⟨S8x8x262144, .i1⟩
  | .hbm, ⟨10, _⟩ => ⟨S8x8x262144, .f32⟩
  | .hbm, ⟨11, _⟩ => ⟨S8x262144, .i32⟩
  | .hbm, ⟨12, _⟩ => ⟨S8, .i32⟩
  | .hbm, ⟨13, _⟩ => ⟨S8x1x262144, .i32⟩
  | .hbm, ⟨14, _⟩ => ⟨S1x8x1, .i32⟩
  | .hbm, ⟨15, _⟩ => ⟨S8x8x262144, .i32⟩
  | .hbm, ⟨16, _⟩ => ⟨S8x8x262144, .i32⟩
  | .hbm, ⟨17, _⟩ => ⟨S8x8x262144, .i1⟩
  | .hbm, ⟨18, _⟩ => ⟨S8x8x262144, .f32⟩
  | .hbm, ⟨19, _⟩ => ⟨S8x8x262144, .f32⟩
  | .hbm, ⟨20, _⟩ => ⟨S_, .f32⟩
  | .hbm, ⟨21, _⟩ => ⟨S8x8, .f32⟩
  | .hbm, ⟨22, _⟩ => ⟨S_, .f32⟩
  | .hbm, ⟨23, _⟩ => ⟨S8x8, .f32⟩
  | .hbm, ⟨24, _⟩ => ⟨S_, .f32⟩
  | .hbm, ⟨25, _⟩ => ⟨S8x8, .f32⟩
  | .hbm, ⟨26, _⟩ => ⟨S8x8, .f32⟩
  | .hbm, ⟨27, _⟩ => ⟨S_, .f32⟩
  | .hbm, ⟨28, _⟩ => ⟨S8x8, .f32⟩
  | .hbm, ⟨29, _⟩ => ⟨S8x8, .f32⟩
  | .hbm, ⟨30, _⟩ => ⟨S_, .f32⟩
  | .hbm, ⟨31, _⟩ => ⟨S8x8, .f32⟩
  | .hbm, ⟨32, _⟩ => ⟨S8x8, .f32⟩
  | .hbm, ⟨33, _⟩ => ⟨S_, .f32⟩
  | .hbm, ⟨34, _⟩ => ⟨S8x8, .f32⟩
  | .hbm, ⟨35, _⟩ => ⟨S8x8, .f32⟩
  | .hbm, ⟨36, _⟩ => ⟨S8x8, .f32⟩
  | .hbm, ⟨37, _⟩ => ⟨S_, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S_, .f32⟩
  | _, _ => ⟨S8x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  shapeCasts_S8x512x512_S8x262144 : S8x512x512.ShapeCasts S8x262144
  bcast_S8x262144_S8x1x262144_0_2 : S8x262144.BroadcastsInDim S8x1x262144 (![0, 2] : Fin 2 → Fin S8x1x262144.rank)
  bcast_S8_S1x8x1_1 : S8.BroadcastsInDim S1x8x1 (![1] : Fin 1 → Fin S1x8x1.rank)
  bcast_S8x1x262144_S8x8x262144_0_1_2 : S8x1x262144.BroadcastsInDim S8x8x262144 (![0, 1, 2] : Fin 3 → Fin S8x8x262144.rank)
  bcast_S1x8x1_S8x8x262144_0_1_2 : S1x8x1.BroadcastsInDim S8x8x262144 (![0, 1, 2] : Fin 3 → Fin S8x8x262144.rank)
  reducesTo_S8x8x262144_S8x8_d2 : S8x8x262144.ReducesTo [2] S8x8
  h_S_ : 0 < S_.numel
  bcast_S_S8x8 : S_.BroadcastsInDim S8x8 (![] : Fin 0 → Fin S8x8.rank)
  reducesTo_S8x8_S8_d0 : S8x8.ReducesTo [0] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.BlockPieces.lean ====
/-
  What one grid point leaves in the two output blocks.

  The kernel walks the 262144 pixels of each of the 8 samples in 16 blocks of 16384. At a point it holds one [8, 16384]
  block of predicted labels and one of target labels, and for each class k = 0 … 7 forms, row by row,
    the number of pixels of the block where BOTH labels are k   (column k of the "overlap" block), and
    the number where the predicted label is k PLUS the number where the target label is k   (column k of the "count" block),
  each as a sum along the lanes of 0/1 indicators. Both [8, 8] blocks are then ADDED to what the output buffers hold; at the
  first point the buffers are set to zero before that. So a point other than the first leaves  held + this block's sums,  and
  the first point leaves  0 + this block's sums.  Nothing here depends on how floats are read.
-/
import proofs.«131166_j59442347376955_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

theorem origin : (![0, 0] : Fin 2 → Nat) = fun _ => 0 := funext fun a => by fin_cases a <;> rfl

/-- The [8, 8] block of zeros the first point stores into both outputs. -/
abbrev zeroBlock : Vec F S8x8 .f32 := broadcast S8x8 (Scalar.ofBits .f32 0x00000000#32)

/-- One block's overlap sums: entry (n, k) counts the pixels of row n of the block whose predicted AND target label is k. -/
def overlapBlock (x0 x1 : Vec F S8x16384 .i32) : FVec F S8x8 .f32 :=
  k0_pay36 (k0_pay5 x0) (k0_pay6 x1) (k0_pay9 x0 x1) (k0_pay13 x0 x1) (k0_pay18 (k0_pay15 x0) (k0_pay16 x1))
    (k0_pay22 (k0_pay5 x0) (k0_pay6 x1)) (k0_pay26 (k0_pay5 x0) (k0_pay6 x1)) (k0_pay30 (k0_pay5 x0) (k0_pay6 x1))

/-- One block's count sums: entry (n, k) is the number of pixels of row n predicted k plus the number whose target is k. -/
def countBlock (x0 x1 : Vec F S8x16384 .i32) : FVec F S8x8 .f32 :=
  k0_pay37 (k0_pay5 x0) (k0_pay6 x1) (k0_pay10 x0 x1) (k0_pay14 x0 x1) (k0_pay19 (k0_pay15 x0) (k0_pay16 x1))
    (k0_pay23 (k0_pay5 x0) (k0_pay6 x1)) (k0_pay27 (k0_pay5 x0) (k0_pay6 x1)) (k0_pay29 (k0_pay6 x1))
    (k0_pay31 (k0_pay5 x0))

/-- A point after the first adds the block's overlap sums to the overlap buffer it finds. -/
theorem later_overlap (c : Dev nD) (i : grid0.Coords) (a1 : Memref sig .tc .vmem S8x16384 .i32) (h1 : a1.IsWhole)
    (a2 : Memref sig .tc .vmem S8x16384 .i32) (h2 : a2.IsWhole) (a3 : Memref sig .tc .vmem S8x8 .f32) (h3 : a3.IsWhole)
    (a4 : Memref sig .tc .vmem S8x8 .f32) (h4 : a4.IsWhole) (hc : ¬cond0_0 i)
    (x0 x1 : Vec F S8x16384 .i32) (xo2 xo3 : Vec F S8x8 .f32) :
    out0_B_2 c i a1 h1 a2 h2 a3 h3 a4 h4 hc x0 x1 xo2 xo3 = addf xo2 (overlapBlock x0 x1) := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero origin]
  simp only [View.readAt_eq_ld, h1.read_unread, h2.read_unread, h3.read_unread, h4.read_unread,
    View.ld_unit_zero (S := S8x16384) origin, View.ld_unit_zero (S := S8x8) origin]
  unfold k0_pay1 overlapBlock
  simp only [shapeCast_self]

/-- A point after the first adds the block's count sums to the count buffer it finds. -/
theorem later_count (c : Dev nD) (i : grid0.Coords) (a1 : Memref sig .tc .vmem S8x16384 .i32) (h1 : a1.IsWhole)
    (a2 : Memref sig .tc .vmem S8x16384 .i32) (h2 : a2.IsWhole) (a3 : Memref sig .tc .vmem S8x8 .f32) (h3 : a3.IsWhole)
    (a4 : Memref sig .tc .vmem S8x8 .f32) (h4 : a4.IsWhole) (hc : ¬cond0_0 i)
    (x0 x1 : Vec F S8x16384 .i32) (xo2 xo3 : Vec F S8x8 .f32) :
    out0_B_3 c i a1 h1 a2 h2 a3 h3 a4 h4 hc x0 x1 xo2 xo3 = addf xo3 (countBlock x0 x1) := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero origin]
  simp only [View.readAt_eq_ld, h1.read_unread, h2.read_unread, h3.read_unread, h4.read_unread,
    View.ld_unit_zero (S := S8x16384) origin, View.ld_unit_zero (S := S8x8) origin]
  unfold k0_pay2 countBlock
  simp only [shapeCast_self]

/-- The first point zeroes the overlap buffer, reads the zeros back and adds the block's overlap sums. -/
theorem first_overlap (c : Dev nD) (i : grid0.Coords) (a1 : Memref sig .tc .vmem S8x16384 .i32) (h1 : a1.IsWhole)
    (a2 : Memref sig .tc .vmem S8x16384 .i32) (h2 : a2.IsWhole) (a3 : Memref sig .tc .vmem S8x8 .f32) (h3 : a3.IsWhole)
    (a4 : Memref sig .tc .vmem S8x8 .f32) (h4 : a4.IsWhole) (hc : cond0_0 i)
    (x0 x1 : Vec F S8x16384 .i32) :
    out0_A_2 c i a1 h1 a2 h2 a3 h3 a4 h4 hc x0 x1 = addf zeroBlock (overlapBlock x0 x1) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S8x8) origin, View.readCov_unit_zero (S := S8x8) _ origin]
  simp only [View.readAt_eq_ld, h1.read_unread, h2.read_unread,
    View.ld_unit_zero (S := S8x16384) origin, View.ld_unit_zero (S := S8x8) origin]
  unfold k0_pay1 k0_pay3 overlapBlock
  simp only [shapeCast_self]

/-- The first point zeroes the count buffer, reads the zeros back and adds the block's count sums. -/
theorem first_count (c : Dev nD) (i : grid0.Coords) (a1 : Memref sig .tc .vmem S8x16384 .i32) (h1 : a1.IsWhole)
    (a2 : Memref sig .tc .vmem S8x16384 .i32) (h2 : a2.IsWhole) (a3 : Memref sig .tc .vmem S8x8 .f32) (h3 : a3.IsWhole)
    (a4 : Memref sig .tc .vmem S8x8 .f32) (h4 : a4.IsWhole) (hc : cond0_0 i)
    (x0 x1 : Vec F S8x16384 .i32) :
    out0_A_3 c i a1 h1 a2 h2 a3 h3 a4 h4 hc x0 x1 = addf zeroBlock (countBlock x0 x1) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S8x8) origin, View.readCov_unit_zero (S := S8x8) _ origin]
  simp only [View.readAt_eq_ld, h1.read_unread, h2.read_unread,
    View.ld_unit_zero (S := S8x16384) origin, View.ld_unit_zero (S := S8x8) origin]
  unfold k0_pay2 k0_pay4 countBlock
  simp only [shapeCast_self]

end Cert.KernelIdeal.Block

end
-- ==== Proof.Totals.lean ====
/-
  What the two result arrays of the region hold when it ends.

  The overlap buffer and the count buffer stay in place over the 16 grid points (their block index never moves) and are written
  back once, after the last point. After point n each holds the sum of the per-block sums of points 0 … n: the first point
  leaves 0 + its block, every later point adds its block to what it finds. By induction on the point, not by listing the grid.
  The one write-back at point 15 writes the whole [8, 8] array (its only block sits at offset (0, 0)), so each result array ends
  holding the sum over all 16 blocks.
-/
import proofs.«131166_j59442347376955_2_alg».proof.Proof.BlockPieces
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Block

variable (m : (ℓ : Loc nD τ sig) → Buf (Elt Ideal) ℓ) (ρ : Dev nD → PrngReg)

theorem points : cfg0.N = 16 := N_0

/-- The overlap sums of the block the kernel holds at point `b`. -/
def overlapAt (c : Dev nD) (b : Fin cfg0.N) : Vec Ideal S8x8 .f32 := overlapBlock (F := Ideal) (iblk m c 0 b) (iblk m c 1 b)

/-- The count sums of the block the kernel holds at point `b`. -/
def countAt (c : Dev nD) (b : Fin cfg0.N) : Vec Ideal S8x8 .f32 := countBlock (F := Ideal) (iblk m c 0 b) (iblk m c 1 b)

/-- The overlap sums of points `0 … n` added up. -/
def overlapThrough (c : Dev nD) (n : ℕ) (h : n < cfg0.N) : Vec Ideal S8x8 .f32 :=
  fun j => ∑ b : Fin (n + 1), overlapAt m c ⟨b.val, Nat.lt_of_lt_of_le b.isLt h⟩ j

/-- The count sums of points `0 … n` added up. -/
def countThrough (c : Dev nD) (n : ℕ) (h : n < cfg0.N) : Vec Ideal S8x8 .f32 :=
  fun j => ∑ b : Fin (n + 1), countAt m c ⟨b.val, Nat.lt_of_lt_of_le b.isLt h⟩ j

/-- After point `n` the two buffers hold the sums through `n`. The first point starts from the zero block (0 + x = x on the
    extended reals); a later point adds its block to the sums through the point before. -/
theorem buffers_after (c : Dev nD) : ∀ (n : ℕ) (h : n < cfg0.N),
    outsAt0 m c n h = (overlapThrough m c n h, countThrough m c n h)
  | 0, h => by
    rw [outsAt0_A m c ⟨0, h⟩ rfl, first_overlap, first_count]
    refine Prod.ext (funext fun j => ?_) (funext fun j => ?_)
    · show Ideal.ofBits .f32 0x00000000#32 + overlapAt m c ⟨0, h⟩ j = ∑ b : Fin 1, overlapAt m c ⟨b.val, _⟩ j
      rw [Ideal.ofBits_zero_f32, zero_add, Fin.sum_univ_one]
      rfl
    · show Ideal.ofBits .f32 0x00000000#32 + countAt m c ⟨0, h⟩ j = ∑ b : Fin 1, countAt m c ⟨b.val, _⟩ j
      rw [Ideal.ofBits_zero_f32, zero_add, Fin.sum_univ_one]
      rfl
  | n + 1, h => by
    have hN := points
    have notFirst : ¬(⟨n + 1, h⟩ : Fin cfg0.N).val % 16 = 0 := by dsimp only; omega
    rw [outsAt0_B m c ⟨n + 1, h⟩ notFirst, later_overlap, later_count]
    show (addf (F := Ideal) (s := S8x8) (φ := FTy.f32) (outsAt0 m c n _).1 _,
      addf (F := Ideal) (s := S8x8) (φ := FTy.f32) (outsAt0 m c n _).2 _) = _
    rw [buffers_after c n]
    refine Prod.ext (funext fun j => ?_) (funext fun j => ?_)
    · show overlapThrough m c n (Nat.lt_of_succ_lt h) j + overlapAt m c ⟨n + 1, h⟩ j
        = ∑ b : Fin (n + 1 + 1), overlapAt m c ⟨b.val, Nat.lt_of_lt_of_le b.isLt h⟩ j
      rw [Fin.sum_univ_castSucc]
      rfl
    · show countThrough m c n (Nat.lt_of_succ_lt h) j + countAt m c ⟨n + 1, h⟩ j
        = ∑ b : Fin (n + 1 + 1), countAt m c ⟨b.val, Nat.lt_of_lt_of_le b.isLt h⟩ j
      rw [Fin.sum_univ_castSucc]
      rfl

/-- The last grid point. -/
abbrev lastPoint : Fin cfg0.N := t0_15

theorem lastPoint_lt : 15 < cfg0.N := by rw [points]; decide

/-- The overlap sums over all 16 blocks, as contents of the region's first result array. -/
abbrev overlapTotal (c : Dev nD) : Buf (Elt Ideal) ((c : Thread nD τ).loc main_v2_0) := overlapThrough m c 15 lastPoint_lt

/-- The count sums over all 16 blocks, as contents of the region's second result array. -/
abbrev countTotal (c : Dev nD) : Buf (Elt Ideal) ((c : Thread nD τ).loc main_v2_1) := countThrough m c 15 lastPoint_lt

/-- Only the last point writes a result block back. -/
theorem only_last (t : Fin cfg0.N) (h : t.val % 16 = 15) : t = lastPoint := by
  have hN := points
  exact Fin.ext (by have := t.isLt; show t.val = 15; omega)

/-- The block offsets of the two result windows are zero at the last point: the one block is the whole array. -/
theorem offsets2 : (fun a => win0_2.index lastPoint a * main_v2_0.ty.shape.size a) = fun _ => 0 :=
  funext fun a => by fin_cases a <;> decide
theorem offsets3 : (fun a => win0_3.index lastPoint a * main_v2_1.ty.shape.size a) = fun _ => 0 :=
  funext fun a => by fin_cases a <;> decide

/-- What the write-back of the overlap window writes is the total, read through its (whole-array) block. -/
theorem written_overlap (c : Dev nD) (t : Fin cfg0.N) (hf : (cfg0.win 2).flush t = true) :
    (dats m 0 c).flushed 2 t = ((cfg0.win 2).blk t).view.read (Elt Ideal) (overlapTotal m c) := by
  obtain rfl := only_last t ((flush0_2 t).mp hf)
  show (cfg0.win 2).cut (grid0.coords lastPoint) ((dats m 0 c).after 2 lastPoint) = _
  rw [after0_2, buffers_after]
  exact (Memref.read_access_unit_zero (Elt Ideal) main_v2_0 offsets2 (fun a => by rw [congrFun offsets2 a]; simp)
    (overlapTotal m c)).symm

/-- What the write-back of the count window writes is the total, read through its (whole-array) block. -/
theorem written_count (c : Dev nD) (t : Fin cfg0.N) (hf : (cfg0.win 3).flush t = true) :
    (dats m 0 c).flushed 3 t = ((cfg0.win 3).blk t).view.read (Elt Ideal) (countTotal m c) := by
  obtain rfl := only_last t ((flush0_3 t).mp hf)
  show (cfg0.win 3).cut (grid0.coords lastPoint) ((dats m 0 c).after 3 lastPoint) = _
  rw [after0_3, buffers_after]
  exact (Memref.read_access_unit_zero (Elt Ideal) main_v2_1 offsets3 (fun a => by rw [congrFun offsets3 a]; simp)
    (countTotal m c)).symm

/-- The first result array ends holding the overlap total: the last point's block covers every entry. -/
theorem overlap_array (c : Dev nD) : (dats m 0 c).arrAt 2 cfg0.N = overlapTotal m c :=
  (dats m 0 c).arrAt_eq_of_cover 2 (overlapTotal m c) (written_overlap m c) fun i =>
    ⟨lastPoint, (flush0_2 lastPoint).mpr rfl, by
      show i ∈ ((View.whole main_v2_0).slice (win0_2.rect lastPoint)).set
      rw [View.set_slice_whole]
      exact View.mem_set_unit_zero offsets2 _ i⟩

/-- The second result array ends holding the count total. -/
theorem count_array (c : Dev nD) : (dats m 0 c).arrAt 3 cfg0.N = countTotal m c :=
  (dats m 0 c).arrAt_eq_of_cover 3 (countTotal m c) (written_count m c) fun i =>
    ⟨lastPoint, (flush0_3 lastPoint).mpr rfl, by
      show i ∈ ((View.whole main_v2_1).slice (win0_3.rect lastPoint)).set
      rw [View.set_slice_whole]
      exact View.mem_set_unit_zero offsets3 _ i⟩

end Cert.KernelIdeal.Total

end
-- ==== Proof.Spec.lean ====
/-
  The specification both programs meet, and the tail they share.

  For 8 samples of 262144 pixels, labels in two integer arrays X0 (predicted) and X1 (target), and classes k = 0 … 7:

     overlap (n, k) = number of pixels p of sample n with  X0 n p = k  and  X1 n p = k     = sum over p of hit·hit
     count   (n, k) = number with X0 n p = k,  plus  number with X1 n p = k                = (sum of hit) + (sum of hit)

  where hit w k is 1 if the word w is the word k and 0 otherwise. These are sums of zeros and ones on the extended reals.
  From the two [8, 8] tables both programs then compute, by the same operations with the same constants in the same order,
     dice (n, k) = (2 · overlap + ε) / (count + ε),   the mean of dice over the 8 samples for each class,
     and the weighted sum of the class means.
  That common end is stated once here (classMean, weighted); an equality of the tables is carried through it by congruence, so
  what the division or ε denote is never looked at.
-/
import Idealize.ShloMosaic.PureOps.Ideal
import Idealize.ShloMosaic.Lib.ValueIdx

noncomputable section

open Idealize.ShloMosaic Idealize.ShloMosaic.ValueIdx

namespace Dice

abbrev S8x262144 : Shape := ⟨2, ![8, 262144]⟩
abbrev S8x8 : Shape := ⟨2, ![8, 8]⟩
abbrev S8 : Shape := ⟨1, ![8]⟩
abbrev S_ : Shape := ⟨0, ![]⟩

/-- 1 when the label word is the class word, else 0, as an extended real. -/
def hit (w k : BitVec 32) : EReal := (((IntOp.cmpi .eq w k).toNat : ℝ) : EReal)

/-- The word of class number `k`. -/
abbrev cls (k : Fin 8) : BitVec 32 := BitVec.ofNat 32 k.val

/-- For sample `j 0` and class `j 1`: how many pixels carry that class in BOTH label arrays. -/
def overlap (X0 X1 : IVec S8x262144 32) : FVec Ideal S8x8 .f32 := fun j =>
  ∑ r : Fin 262144, hit (X0 (ix2 (j 0) r)) (cls (j 1)) * hit (X1 (ix2 (j 0) r)) (cls (j 1))

/-- For sample `j 0` and class `j 1`: how many pixels carry that class in the first array, plus how many in the second. -/
def count (X0 X1 : IVec S8x262144 32) : FVec Ideal S8x8 .f32 := fun j =>
  (∑ r : Fin 262144, hit (X0 (ix2 (j 0) r)) (cls (j 1))) + ∑ r : Fin 262144, hit (X1 (ix2 (j 0) r)) (cls (j 1))

/-- The common end, first part: (2 · overlap + ε) / (count + ε), summed over the samples from zero and divided by 8,
    class by class — the host operations both programs print, on whatever tables they are given. -/
def classMean (hb : S_.BroadcastsInDim S8x8 (![] : Fin 0 → Fin S8x8.rank)) (hr : S8x8.ReducesTo [0] S8) (h0 : 0 < S_.numel)
    (hb8 : S_.BroadcastsInDim S8 (![] : Fin 0 → Fin S8.rank)) (ov ct : FVec Ideal S8x8 .f32) : FVec Ideal S8 .f32 :=
  Host.divf (F := Ideal)
    (Host.reduceAdd (F := Ideal)
      (Host.divf (F := Ideal)
        (addf (mulf (broadcastInDim S8x8 ![] hb (constant (F := Ideal) S_ .f32 0x40000000#32)) ov)
          (broadcastInDim S8x8 ![] hb (constant (F := Ideal) S_ .f32 0x3727C5AC#32)))
        (addf ct (broadcastInDim S8x8 ![] hb (constant (F := Ideal) S_ .f32 0x3727C5AC#32))))
      (constant (F := Ideal) S_ .f32 0x00000000#32) hr h0)
    (broadcastInDim S8 ![] hb8 (constant (F := Ideal) S_ .f32 0x41000000#32))

/-- The common end, second part: the class means times the weights, summed from zero. -/
def weighted (hr0 : S8.ReducesTo [0] S_) (h0 : 0 < S_.numel) (w mean : FVec Ideal S8 .f32) : FVec Ideal S_ .f32 :=
  Host.reduceAdd (F := Ideal) (mulf w mean) (constant (F := Ideal) S_ .f32 0x00000000#32) hr0 h0

end Dice

end
-- ==== Proof.KernelRun.lean ====
/-
  The idealized kernel's run, read: its two results as the common end applied to the two totals.

  After the region, the host lines compute (2 · overlap + ε) / (count + ε), its mean over the samples and the weighted sum, from
  the region's two result arrays — which hold the totals over all 16 blocks — and from the weights, which nothing writes.
-/
import proofs.«131166_j59442347376955_2_alg».proof.Proof.Totals
import proofs.«131166_j59442347376955_2_alg».proof.Proof.Spec
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.Total

open Cert.KernelIdeal Cert.KernelIdeal.Gen Cert.KernelIdeal.Block

variable (m : (ℓ : Loc nD τ sig) → Buf (Elt Ideal) ℓ) (ρ : Dev nD → PrngReg)

/-- The class means the kernel returns: the common end over the two totals. -/
abbrev means (c : Dev nD) : FVec Ideal S8 .f32 :=
  Dice.classMean bcast_S_S8x8 reducesTo_S8x8_S8_d0 h_S_ bcast_S_S8 (overlapTotal m c) (countTotal m c)

/-- When the region ends its first result array holds the overlap total, -/
theorem exit_overlap (c : Dev nD) :
    Pipeline.withArrays (cfgs 0).spec c (V0 m c) (fun w => (dats m 0 c).arrAt w (cfgs 0).N) (Proc.devRef .tc main_v2_0)
      = overlapTotal m c :=
  (Pipeline.withArrays_arr spec0 launch0.win.arr_inj c _ _ 2).trans (overlap_array m c)

/-- its second the count total, -/
theorem exit_count (c : Dev nD) :
    Pipeline.withArrays (cfgs 0).spec c (V0 m c) (fun w => (dats m 0 c).arrAt w (cfgs 0).N) (Proc.devRef .tc main_v2_1)
      = countTotal m c :=
  (Pipeline.withArrays_arr spec0 launch0.win.arr_inj c _ _ 3).trans (count_array m c)

/-- and the weights are as launched: no window stages them and no host line before the region writes them. -/
theorem exit_weights (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The host lines after the region leave the class means in `%12`. -/
theorem means_after (c : Dev nD) :
    Pipeline.afterTail₀ cfgs (dats m) 0 (V0 m) [hostOps1] c main_v12 = means m c := by
  unfold Pipeline.afterTail₀
  show StableHlo.after hostOps1 _ (Proc.devRef .tc main_v12) = _
  after_results
  exact congrArg₂ (Dice.classMean bcast_S_S8x8 reducesTo_S8x8_S8_d0 h_S_ bcast_S_S8) (exit_overlap m c) (exit_count m c)

/-- and the weighted sum of the class means in `%14`. -/
theorem loss_after (c : Dev nD) :
    Pipeline.afterTail₀ cfgs (dats m) 0 (V0 m) [hostOps1] c main_v14
      = Dice.weighted reducesTo_S8_S_d0 h_S_ (m ((c : Thread nD τ).loc main_arg2)) (means m c) := by
  unfold Pipeline.afterTail₀
  show StableHlo.after hostOps1 _ (Proc.devRef .tc main_v14) = _
  after_results
  exact congrArg₂ (Dice.weighted reducesTo_S8_S_d0 h_S_) (exit_weights m c)
    (congrArg₂ (Dice.classMean bcast_S_S8x8 reducesTo_S8x8_S8_d0 h_S_ bcast_S_S8) (exit_overlap m c) (exit_count m c))

/-- THE RUN: every weakly fair execution of the idealized kernel ends with the weighted sum in `%14`, the class means in
    `%12`, and the three arguments as launched. -/
theorem run : θ_run defs (onTc (τ := τ) (main (F := Ideal))) ⟨m, fun _ => 0, ρ⟩ fun r => ∀ c : Dev nD,
      r.2.mem ((c.tc : Thread nD τ).loc main_v14)
        = Dice.weighted reducesTo_S8_S_d0 h_S_ (m ((c : Thread nD τ).loc main_arg2)) (means m c)
      ∧ r.2.mem ((c.tc : Thread nD τ).loc main_v12) = means m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (loss_after m c),
     ((h c).2 main_v12 (Pipeline.mem_restRefs_of main_v12 (by decide) (by decide))).trans (means_after m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Total

end
-- ==== Proof.LibBlockSum.lean ====
/-
  General facts for a sum that is taken block by block, and for the 0/1 value of a one-bit word.

  Nothing here mentions a program. Three things:
   * a sum over B·Q terms is the sum over the B blocks of the Q terms of each block (position b·Q + q), in any commutative
     monoid — in particular on the extended reals, where no finiteness is needed for it;
   * a quantity that starts at  0 + P 0  and gains  P (n+1)  at each step is, after step n, the sum of P over 0 … n;
   * the one-bit result of a comparison, widened to 32 bits by padding with zeros and then read as a SIGNED integer, is the
     same number (0 or 1) as the bit read as an UNSIGNED integer: the widened word is 0 or 1, never negative.
-/
import Mathlib.Algebra.BigOperators.Fin
import Mathlib.Algebra.BigOperators.Group.Finset.Basic
import Mathlib.Logic.Equiv.Fin.Basic
import Mathlib.Data.Real.Basic

namespace BlockSum

open Finset

/-- A sum over `B * Q` consecutive positions, taken block by block: block `b` holds positions `b * Q + q`, `q < Q`. -/
theorem sum_blocks {M : Type*} [AddCommMonoid M] (B Q : ℕ) (f : ℕ → M) :
    ∑ b : Fin B, ∑ q : Fin Q, f (b.val * Q + q.val) = ∑ p : Fin (B * Q), f p.val := by
  calc ∑ b : Fin B, ∑ q : Fin Q, f (b.val * Q + q.val)
      = ∑ x : Fin B × Fin Q, f (x.1.val * Q + x.2.val) :=
        (Fintype.sum_prod_type' (fun (b : Fin B) (q : Fin Q) => f (b.val * Q + q.val))).symm
    _ = ∑ x : Fin B × Fin Q, f (finProdFinEquiv x).val := by
        refine Finset.sum_congr rfl fun x _ => ?_
        rw [finProdFinEquiv_apply_val]
        congr 1
        rw [Nat.mul_comm, Nat.add_comm]
    _ = ∑ p : Fin (B * Q), f p.val := Equiv.sum_comp finProdFinEquiv (fun p => f p.val)

/-- A running total that starts at `0 + P 0` and adds `P (n + 1)` at step `n + 1` is the sum of `P` over `0 … n`. -/
theorem running_total {M : Type*} [AddCommMonoid M] (P : ℕ → M) (a : ℕ → M) (N : ℕ)
    (h0 : a 0 = 0 + P 0) (hs : ∀ n, n + 1 < N → a (n + 1) = a n + P (n + 1)) :
    ∀ n, n < N → a n = ∑ b ∈ Finset.range (n + 1), P b
  | 0, _ => by rw [h0, zero_add, Finset.sum_range_one]
  | n + 1, h => by
    rw [hs n h, running_total P a N h0 hs n (Nat.lt_of_succ_lt h), Finset.sum_range_succ _ (n + 1)]

/-- A one-bit word is 0 or 1. -/
theorem bit_cases (b : BitVec 1) : b = 0#1 ∨ b = 1#1 := by
  rcases b with ⟨⟨v, hv⟩⟩
  have : v = 0 ∨ v = 1 := by omega
  rcases this with rfl | rfl
  · exact Or.inl rfl
  · exact Or.inr rfl

/-- Padding a one-bit word with zeros to 32 bits and reading it as a signed integer gives the bit itself: 0 or 1. -/
theorem toInt_setWidth_bit (b : BitVec 1) : ((b.setWidth 32).toInt : ℝ) = (b.toNat : ℝ) := by
  rcases bit_cases b with rfl | rfl
  · norm_num
  · norm_num

end BlockSum
-- ==== Proof.LibKeepdims.lean ====
/-
  A vector turned into a one-column matrix, read at an entry.

  Casting an array of shape [a] to shape [a, 1] moves nothing: entry (i, 0) of the column is entry i of the vector. Both sit at
  row-major position i, which is all a shape cast looks at.
-/
import Idealize.ShloMosaic.Lib.ValueLayout
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.Keepdims
-- ==== Proof.BlockValue.lean ====
/-
  One block's sums, entry by entry, on the extended reals.

  Write  hit w k  for the number 1 when the label word w is the class word k and 0 otherwise. The kernel gets it by
  comparing (a one-bit word), padding the bit to 32 bits and converting as a SIGNED integer; the padded word is 0 or 1, so the
  result is the bit itself read as a number. With it, for a block of predicted labels x0 and target labels x1 (8 rows of 16384):

     overlap block at (n, k)  =  sum over the 16384 lanes q of   hit (x0 n q) k  *  hit (x1 n q) k
     count   block at (n, k)  =  (sum over q of hit (x0 n q) k)  +  (sum over q of hit (x1 n q) k)

  Column k of either block is its own lane sum, turned into an [8, 1] column; the eight columns are laid side by side.
-/
import proofs.«131166_j59442347376955_2_alg».proof.Proof.BlockPieces
import proofs.«131166_j59442347376955_2_alg».proof.Proof.LibBlockSum
import proofs.«131166_j59442347376955_2_alg».proof.Proof.LibKeepdims
import proofs.«131166_j59442347376955_2_alg».proof.Proof.Spec
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen
open Dice (hit cls)

/-- The kernel's 0/1 mark of class `k` over a block of labels: compare, pad the bit to 32 bits, convert as signed. -/
def mark (k : BitVec 32) (v : IVec S8x16384 32) : FVec Ideal S8x16384 .f32 :=
  sitofp .f32 (extui 32 (cmpi .eq v (broadcast S8x16384 k)) natLt_1_32)

/-- The mark at a position is `hit` of the label there: the padded bit is 0 or 1, never negative. -/
theorem mark_apply (k : BitVec 32) (v : IVec S8x16384 32) (j : S8x16384.Idx) : mark k v j = hit (v j) k := by
  show (((((IntOp.cmpi .eq (v j) k).setWidth 32).toInt : ℝ)) : EReal) = _
  rw [BlockSum.toInt_setWidth_bit]
  rfl

/-- A sum along the lanes of an [8, 16384] block from the zero word, at row `p`: the plain sum of the row's 16384 entries. -/
theorem laneSum_apply (src : FVec Ideal S8x16384 .f32) (hφ : FKind.Formats FTy.f32)
    (hacc : (0x00000000#32 : BitVec 32) = 0x00000000#32) (p : Fin 8) :
    multiReduction .add [1] S8 src 0x00000000#32 reduces_S8x16384_S8 hφ hacc (ix1 p) = ∑ q : Fin 16384, src (ix2 p q) := by
  refine (Ideal.multiReduction_add_single src 0x00000000#32 reduces_S8x16384_S8 hφ hacc (ix1 p)).trans ?_
  refine Finset.sum_congr rfl fun q _ => congrArg src ?_
  funext a
  match a with
  | ⟨0, _⟩ => rfl
  | ⟨1, _⟩ => rfl

/-- Column `k` of the overlap block, as a vector over the 8 rows: the lane sum of the product of the two marks of class `k`. -/
def overlapCol (v4 v6 : IVec S8x16384 32) (k : Fin 8) : FVec Ideal S8 .f32 :=
  multiReduction .add [1] S8 (mulf (mark (cls k) v4) (mark (cls k) v6)) 0x00000000#32 reduces_S8x16384_S8 (.inl rfl) rfl

/-- Column `k` of the count block: the lane sum of the predicted labels' marks plus the lane sum of the target labels' marks. -/
def countCol (v4 v6 : IVec S8x16384 32) (k : Fin 8) : FVec Ideal S8 .f32 :=
  addf (multiReduction .add [1] S8 (mark (cls k) v4) 0x00000000#32 reduces_S8x16384_S8 (.inl rfl) rfl)
    (multiReduction .add [1] S8 (mark (cls k) v6) 0x00000000#32 reduces_S8x16384_S8 (.inl rfl) rfl)

theorem overlapCol_apply (v4 v6 : IVec S8x16384 32) (k : Fin 8) (p : Fin 8) :
    overlapCol v4 v6 k (ix1 p) = ∑ q : Fin 16384, hit (v4 (ix2 p q)) (cls k) * hit (v6 (ix2 p q)) (cls k) := by
  unfold overlapCol
  refine (laneSum_apply _ _ _ p).trans ?_
  refine Finset.sum_congr rfl fun q _ => ?_
  show mark (cls k) v4 (ix2 p q) * mark (cls k) v6 (ix2 p q) = _
  rw [mark_apply, mark_apply]

theorem countCol_apply (v4 v6 : IVec S8x16384 32) (k : Fin 8) (p : Fin 8) :
    countCol v4 v6 k (ix1 p) = (∑ q : Fin 16384, hit (v4 (ix2 p q)) (cls k)) + ∑ q : Fin 16384, hit (v6 (ix2 p q)) (cls k) := by
  unfold countCol
  show multiReduction .add [1] S8 (mark (cls k) v4) 0x00000000#32 reduces_S8x16384_S8 (.inl rfl) rfl (ix1 p)
    + multiReduction .add [1] S8 (mark (cls k) v6) 0x00000000#32 reduces_S8x16384_S8 (.inl rfl) rfl (ix1 p) = _
  rw [laneSum_apply, laneSum_apply]
  simp only [mark_apply]

/-- Eight [8] vectors laid side by side as the columns of an [8, 8] block. -/
def sideBySide (col : Fin 8 → FVec Ideal S8 .f32) : FVec Ideal S8x8 .f32 :=
  concatenate S8x8 1 (List.ofFn fun k : Fin 8 => (⟨S8x1, shapeCast S8x1 (col k) shapeCasts_S8_S8x1⟩ : (s : Shape) × (s.Idx → Ideal .f32)))
    concatenates_S8x1_S8x1_S8x1_S8x1_S8x1_S8x1_S8x1_S8x1_S8x8_d1

/-- Entry (p, k) of the block is entry p of column k. -/
theorem sideBySide_apply (col : Fin 8 → FVec Ideal S8 .f32) (p k : Fin 8) : sideBySide col (ix2 p k) = col k (ix1 p) := by
  unfold sideBySide
  refine (concatenate_ofFn_unit_apply (t := S8x8) (s₁ := S8x1) 1
    (fun k : Fin 8 => shapeCast S8x1 (col k) shapeCasts_S8_S8x1) _ rfl rfl (ix2 p k) k rfl (ix2 p (0 : Fin 1)) ?_).trans ?_
  · intro b hb
    match b with
    | ⟨0, _⟩ => rfl
    | ⟨1, _⟩ => exact absurd rfl hb
  · exact Idealize.ShloMosaic.Keepdims.shapeCast_a_a1_apply (col k) shapeCasts_S8_S8x1 p 0

/-- The overlap block is its eight columns side by side (the printed text, regrouped). -/
theorem overlapBlock_eq (x0 x1 : Vec Ideal S8x16384 .i32) :
    overlapBlock (F := Ideal) x0 x1 = sideBySide (overlapCol (k0_pay5 (F := Ideal) x0) (k0_pay6 (F := Ideal) x1)) := rfl

/-- The count block is its eight columns side by side (the printed text, regrouped). -/
theorem countBlock_eq (x0 x1 : Vec Ideal S8x16384 .i32) :
    countBlock (F := Ideal) x0 x1 = sideBySide (countCol (k0_pay5 (F := Ideal) x0) (k0_pay6 (F := Ideal) x1)) := rfl

/-- THE OVERLAP BLOCK, ENTRY BY ENTRY: at (p, k) the sum over the 16384 lanes of the product of the two hits of class `k`. -/
theorem overlapBlock_apply (x0 x1 : Vec Ideal S8x16384 .i32) (p k : Fin 8) :
    overlapBlock (F := Ideal) x0 x1 (ix2 p k) = ∑ q : Fin 16384, hit (x0 (ix2 p q)) (cls k) * hit (x1 (ix2 p q)) (cls k) := by
  rw [overlapBlock_eq, sideBySide_apply, overlapCol_apply]
  unfold k0_pay5 k0_pay6
  simp only [shapeCast_self]

/-- THE COUNT BLOCK, ENTRY BY ENTRY: at (p, k) the hits of class `k` among the predicted labels plus those among the targets. -/
theorem countBlock_apply (x0 x1 : Vec Ideal S8x16384 .i32) (p k : Fin 8) :
    countBlock (F := Ideal) x0 x1 (ix2 p k)
      = (∑ q : Fin 16384, hit (x0 (ix2 p q)) (cls k)) + ∑ q : Fin 16384, hit (x1 (ix2 p q)) (cls k) := by
  rw [countBlock_eq, sideBySide_apply, countCol_apply]
  unfold k0_pay5 k0_pay6
  simp only [shapeCast_self]

end Cert.KernelIdeal.Block

end
-- ==== Proof.KernelArrays.lean ====
/-
  The totals over the 16 blocks are the sums over all 262144 pixels.

  The block the kernel holds at point t is columns  t·16384 … t·16384 + 16383  of the flattened [8, 262144] label arrays (all 8
  rows): entry (p, q) of the block is entry (p, t·16384 + q) of the array. So the overlap total at (p, k) is the sum over the
  16 blocks of the sum over the 16384 lanes of  hit·hit  at pixel t·16384 + q, which is the sum over all pixels — only the
  grouping of a sum changes. The count total is a sum over blocks of (A + B); it splits into the sum of the A plus the sum of the
  B, then each regroups the same way. Commutativity and associativity of + on the extended reals; nothing needs finiteness.
-/
import proofs.«131166_j59442347376955_2_alg».proof.Proof.BlockValue
import proofs.«131166_j59442347376955_2_alg».proof.Proof.Totals
import proofs.«131166_j59442347376955_2_alg».proof.Proof.Spec
import proofs.«131166_j59442347376955_2_alg».proof.Proof.LibBlockSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Block
open Dice (hit cls)

variable (m : (ℓ : Loc nD τ sig) → Buf (Elt Ideal) ℓ)

/-- Where the two label windows sit at point `t`: block row 0, block column `t`. -/
theorem window0_at : ∀ t : Fin cfg0.N, win0_0.index t (0 : Fin 2) = 0 ∧ win0_0.index t (1 : Fin 2) = t.val :=
  (by decide +kernel : ∀ t : Fin grid0.N, _)
theorem window1_at : ∀ t : Fin cfg0.N, win0_1.index t (0 : Fin 2) = 0 ∧ win0_1.index t (1 : Fin 2) = t.val :=
  (by decide +kernel : ∀ t : Fin grid0.N, _)

/-- Entry (p, q) of the predicted-label block at point `t` is entry (p, t·16384 + q) of the flattened array. -/
theorem block0_apply (c : Dev nD) (t : Fin cfg0.N) (p : Fin 8) (q : Fin 16384) (hb : t.val * 16384 + q.val < 262144) :
    (iblk m c 0 t : Vec Ideal S8x16384 .i32) (ix2 p q) = V m c main_v0 (ix2 p ⟨t.val * 16384 + q.val, hb⟩) := by
  unfold iblk
  rw [View.read_apply]
  show V m c main_v0 _ = V m c main_v0 _
  congr 1
  funext a
  apply Fin.ext
  match a with
  | ⟨0, _⟩ => show win0_0.index t 0 * 8 + 1 * p.val = p.val; rw [(window0_at t).1]; omega
  | ⟨1, _⟩ => show win0_0.index t 1 * 16384 + 1 * q.val = t.val * 16384 + q.val; rw [(window0_at t).2]; omega

/-- The same for the target-label block. -/
theorem block1_apply (c : Dev nD) (t : Fin cfg0.N) (p : Fin 8) (q : Fin 16384) (hb : t.val * 16384 + q.val < 262144) :
    (iblk m c 1 t : Vec Ideal S8x16384 .i32) (ix2 p q) = V m c main_v1 (ix2 p ⟨t.val * 16384 + q.val, hb⟩) := by
  unfold iblk
  rw [View.read_apply]
  show V m c main_v1 _ = V m c main_v1 _
  congr 1
  funext a
  apply Fin.ext
  match a with
  | ⟨0, _⟩ => show win0_1.index t 0 * 8 + 1 * p.val = p.val; rw [(window1_at t).1]; omega
  | ⟨1, _⟩ => show win0_1.index t 1 * 16384 + 1 * q.val = t.val * 16384 + q.val; rw [(window1_at t).2]; omega

/-- The hits of class `k` in row `p` of a flattened label array, as a function of the pixel position (0 past the end). -/
def hitAt (X : IVec Dice.S8x262144 32) (p k : Fin 8) : ℕ → EReal :=
  fun r => if h : r < 262144 then hit (X (ix2 p ⟨r, h⟩)) (cls k) else 0

theorem hitAt_of_lt (X : IVec Dice.S8x262144 32) (p k : Fin 8) (r : ℕ) (h : r < 262144) :
    hitAt X p k r = hit (X (ix2 p ⟨r, h⟩)) (cls k) := dif_pos h

/-- A sum over all pixels of a row, taken as 16 blocks of 16384. -/
theorem by_blocks (f : ℕ → EReal) : ∑ b : Fin 16, ∑ q : Fin 16384, f (b.val * 16384 + q.val) = ∑ r : Fin 262144, f r.val :=
  BlockSum.sum_blocks 16 16384 f

/-- THE OVERLAP TOTAL is the specification's overlap table of the two flattened label arrays. -/
theorem overlapTotal_eq (c : Dev nD) : overlapTotal m c = Dice.overlap (V m c main_v0) (V m c main_v1) := by
  funext j
  obtain ⟨p, k, rfl⟩ : ∃ (p k : Fin 8), j = ix2 p k := ⟨j 0, j 1, eq_ix2 j⟩
  have block : ∀ b : Fin 16, overlapAt m c ⟨b.val, Nat.lt_of_lt_of_le b.isLt lastPoint_lt⟩ (ix2 p k)
      = ∑ q : Fin 16384, hitAt (V m c main_v0) p k (b.val * 16384 + q.val) * hitAt (V m c main_v1) p k (b.val * 16384 + q.val) := by
    intro b
    refine (overlapBlock_apply (iblk m c 0 ⟨b.val, _⟩) (iblk m c 1 ⟨b.val, _⟩) p k).trans ?_
    refine Finset.sum_congr rfl fun q _ => ?_
    have hb : b.val * 16384 + q.val < 262144 := by have := b.isLt; have := q.isLt; omega
    rw [hitAt_of_lt _ p k _ hb, hitAt_of_lt _ p k _ hb]
    exact congrArg₂ (fun u v => hit u (cls k) * hit v (cls k))
      (block0_apply m c ⟨b.val, Nat.lt_of_lt_of_le b.isLt lastPoint_lt⟩ p q hb)
      (block1_apply m c ⟨b.val, Nat.lt_of_lt_of_le b.isLt lastPoint_lt⟩ p q hb)
  calc overlapTotal m c (ix2 p k)
      = ∑ b : Fin 16, overlapAt m c ⟨b.val, Nat.lt_of_lt_of_le b.isLt lastPoint_lt⟩ (ix2 p k) := rfl
    _ = ∑ b : Fin 16, ∑ q : Fin 16384,
          hitAt (V m c main_v0) p k (b.val * 16384 + q.val) * hitAt (V m c main_v1) p k (b.val * 16384 + q.val) :=
        Finset.sum_congr rfl fun b _ => block b
    _ = ∑ r : Fin 262144, hitAt (V m c main_v0) p k r.val * hitAt (V m c main_v1) p k r.val :=
        by_blocks fun r => hitAt (V m c main_v0) p k r * hitAt (V m c main_v1) p k r
    _ = Dice.overlap (V m c main_v0) (V m c main_v1) (ix2 p k) :=
        Finset.sum_congr rfl fun r _ => by rw [hitAt_of_lt _ p k _ r.isLt, hitAt_of_lt _ p k _ r.isLt]

/-- THE COUNT TOTAL is the specification's count table of the two flattened label arrays. -/
theorem countTotal_eq (c : Dev nD) : countTotal m c = Dice.count (V m c main_v0) (V m c main_v1) := by
  funext j
  obtain ⟨p, k, rfl⟩ : ∃ (p k : Fin 8), j = ix2 p k := ⟨j 0, j 1, eq_ix2 j⟩
  have block : ∀ b : Fin 16, countAt m c ⟨b.val, Nat.lt_of_lt_of_le b.isLt lastPoint_lt⟩ (ix2 p k)
      = (∑ q : Fin 16384, hitAt (V m c main_v0) p k (b.val * 16384 + q.val))
        + ∑ q : Fin 16384, hitAt (V m c main_v1) p k (b.val * 16384 + q.val) := by
    intro b
    refine (countBlock_apply (iblk m c 0 ⟨b.val, _⟩) (iblk m c 1 ⟨b.val, _⟩) p k).trans ?_
    refine congrArg₂ (· + ·) (Finset.sum_congr rfl fun q _ => ?_) (Finset.sum_congr rfl fun q _ => ?_)
    · have hb : b.val * 16384 + q.val < 262144 := by have := b.isLt; have := q.isLt; omega
      rw [hitAt_of_lt _ p k _ hb]
      exact congrArg (fun u => hit u (cls k)) (block0_apply m c ⟨b.val, Nat.lt_of_lt_of_le b.isLt lastPoint_lt⟩ p q hb)
    · have hb : b.val * 16384 + q.val < 262144 := by have := b.isLt; have := q.isLt; omega
      rw [hitAt_of_lt _ p k _ hb]
      exact congrArg (fun u => hit u (cls k)) (block1_apply m c ⟨b.val, Nat.lt_of_lt_of_le b.isLt lastPoint_lt⟩ p q hb)
  calc countTotal m c (ix2 p k)
      = ∑ b : Fin 16, countAt m c ⟨b.val, Nat.lt_of_lt_of_le b.isLt lastPoint_lt⟩ (ix2 p k) := rfl
    _ = ∑ b : Fin 16, ((∑ q : Fin 16384, hitAt (V m c main_v0) p k (b.val * 16384 + q.val))
          + ∑ q : Fin 16384, hitAt (V m c main_v1) p k (b.val * 16384 + q.val)) :=
        Finset.sum_congr rfl fun b _ => block b
    _ = (∑ b : Fin 16, ∑ q : Fin 16384, hitAt (V m c main_v0) p k (b.val * 16384 + q.val))
          + ∑ b : Fin 16, ∑ q : Fin 16384, hitAt (V m c main_v1) p k (b.val * 16384 + q.val) := Finset.sum_add_distrib
    _ = (∑ r : Fin 262144, hitAt (V m c main_v0) p k r.val) + ∑ r : Fin 262144, hitAt (V m c main_v1) p k r.val := by
        rw [by_blocks (hitAt (V m c main_v0) p k), by_blocks (hitAt (V m c main_v1) p k)]
    _ = Dice.count (V m c main_v0) (V m c main_v1) (ix2 p k) :=
        congrArg₂ (· + ·) (Finset.sum_congr rfl fun r _ => hitAt_of_lt _ p k _ r.isLt)
          (Finset.sum_congr rfl fun r _ => hitAt_of_lt _ p k _ r.isLt)

end Cert.KernelIdeal.Total

end
-- ==== Proof.Flattened.lean ====
/-
  The label arrays as the region finds them.

  Before the region the host flattens each [8, 512, 512] label array to [8, 262144]; nothing else touches them. So the two arrays
  the kernel's windows read are the flattenings of the two label arguments — the very reshape the reference starts with.
-/
import proofs.«131166_j59442347376955_2_alg».proof.Proof.Gen.KernelIdeal.Frame
import Idealize.ShloMosaic.Lib.StableHlo.Run
import Idealize.ShloMosaic.Lib.Tactic
import Idealize.ShloMosaic.PureOps.Ideal

set_option maxRecDepth 16384

noncomputable section

open Idealize.ShloMosaic Idealize.ShloMosaic.TcCoe Idealize.SL.Sem Idealize.ShloMosaic.StableHlo

namespace Cert.KernelIdeal.Total

open Cert.KernelIdeal Cert.KernelIdeal.Gen

variable (m : (ℓ : Loc nD τ sig) → Buf (Elt Ideal) ℓ)

/-- The predicted labels the region reads are the first argument, flattened. -/
theorem flat0 (c : Dev nD) :
    (V m c main_v0 : S8x262144.Idx → BitVec 32)
      = shapeCast S8x262144 (m ((c : Thread nD τ).loc main_arg0)) shapeCasts_S8x512x512_S8x262144 := by
  show StableHlo.after hostOps0 (fun b => m (c, b)) (Proc.devRef .tc main_v0) = _
  after_results
  rfl

/-- The target labels the region reads are the second argument, flattened. -/
theorem flat1 (c : Dev nD) :
    (V m c main_v1 : S8x262144.Idx → BitVec 32)
      = shapeCast S8x262144 (m ((c : Thread nD τ).loc main_arg1)) shapeCasts_S8x512x512_S8x262144 := by
  show StableHlo.after hostOps0 (fun b => m (c, b)) (Proc.devRef .tc main_v1) = _
  after_results
  rfl

end Cert.KernelIdeal.Total

end
-- ==== Proof.RefValue.lean ====
/-
  The reference computes the specification's two tables and then the common end.

  The reference builds, for every sample n, class k and pixel r at once, the one-hot values of both label arrays — the flattened
  label at (n, r) compared with the k-th entry of 0, 1, …, 7, the one-bit result converted to a float as an unsigned integer,
  which is 1 on equality and 0 otherwise, i.e. hit —, multiplies them, and sums over r from zero: the overlap table. It sums each
  one-hot array over r from zero and adds the two sums: the count table. 0 + x = x on the extended reals. What follows the
  tables is, operation for operation, the common end.
-/
import proofs.«131166_j59442347376955_2_alg».proof.Proof.Gen.ReferenceIdeal.Read
import proofs.«131166_j59442347376955_2_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read
open Dice (hit cls)

abbrev Labels := (⟨S8x512x512, .i32⟩ : BufTy).Contents (Elt Ideal)

/-- The index the three sums over pixels read their operand at: (sample, class, pixel). -/
theorem at17 (p k : Fin 8) (r : Fin 262144) : idx_main_v17 (ix2 p k) r = ix3 p k r :=
  funext fun a => by match a with | ⟨0, _⟩ => rfl | ⟨1, _⟩ => rfl | ⟨2, _⟩ => rfl
theorem at18 (p k : Fin 8) (r : Fin 262144) : idx_main_v18 (ix2 p k) r = ix3 p k r :=
  funext fun a => by match a with | ⟨0, _⟩ => rfl | ⟨1, _⟩ => rfl | ⟨2, _⟩ => rfl
theorem at19 (p k : Fin 8) (r : Fin 262144) : idx_main_v19 (ix2 p k) r = ix3 p k r :=
  funext fun a => by match a with | ⟨0, _⟩ => rfl | ⟨1, _⟩ => rfl | ⟨2, _⟩ => rfl

/-- The one-hot value of the first label array at (sample p, class k, pixel r) is hit of the flattened label at (p, r). -/
theorem onehot0 (x0 : Labels) (p k : Fin 8) (r : Fin 262144) :
    val_main_v7 (F := Ideal) x0 (ix3 p k r) = hit (val_main_v0 (F := Ideal) x0 (ix2 p r)) (cls k) := by
  rw [val_main_v7_apply, val_main_v6_apply, val_main_v4_apply, val_main_v2_apply, val_main_v5_apply, val_main_v3_apply,
    val_main_v1_apply]
  have e : idx_main_v2 (idx_main_v4 (ix3 p k r)) = ix2 p r :=
    funext fun a => by match a with | ⟨0, _⟩ => rfl | ⟨1, _⟩ => rfl
  rw [e]
  rfl

/-- The same for the second label array. -/
theorem onehot1 (x1 : Labels) (p k : Fin 8) (r : Fin 262144) :
    val_main_v15 (F := Ideal) x1 (ix3 p k r) = hit (val_main_v8 (F := Ideal) x1 (ix2 p r)) (cls k) := by
  rw [val_main_v15_apply, val_main_v14_apply, val_main_v12_apply, val_main_v10_apply, val_main_v13_apply, val_main_v11_apply,
    val_main_v9_apply]
  have e : idx_main_v10 (idx_main_v12 (ix3 p k r)) = ix2 p r :=
    funext fun a => by match a with | ⟨0, _⟩ => rfl | ⟨1, _⟩ => rfl
  rw [e]
  rfl

/-- THE REFERENCE'S OVERLAP TABLE is the specification's, of the two flattened label arrays. -/
theorem overlap_eq (x0 x1 : Labels) :
    val_main_v17 (F := Ideal) x0 x1 = Dice.overlap (val_main_v0 (F := Ideal) x0) (val_main_v8 (F := Ideal) x1) := by
  funext j
  obtain ⟨p, k, rfl⟩ : ∃ (p k : Fin 8), j = ix2 p k := ⟨j 0, j 1, eq_ix2 j⟩
  rw [val_main_v17_apply]
  show Ideal.ofBits .f32 0x00000000#32 + _ = _
  rw [Ideal.ofBits_zero_f32, zero_add]
  refine Finset.sum_congr rfl fun r _ => ?_
  rw [at17, val_main_v16_apply]
  show val_main_v7 (F := Ideal) x0 (ix3 p k r) * val_main_v15 (F := Ideal) x1 (ix3 p k r) = _
  rw [onehot0, onehot1]

/-- THE REFERENCE'S COUNT TABLE is the specification's. -/
theorem count_eq (x0 x1 : Labels) :
    val_main_v20 (F := Ideal) x0 x1 = Dice.count (val_main_v0 (F := Ideal) x0) (val_main_v8 (F := Ideal) x1) := by
  funext j
  obtain ⟨p, k, rfl⟩ : ∃ (p k : Fin 8), j = ix2 p k := ⟨j 0, j 1, eq_ix2 j⟩
  rw [val_main_v20_apply, val_main_v18_apply, val_main_v19_apply]
  show (Ideal.ofBits .f32 0x00000000#32 + _) + (Ideal.ofBits .f32 0x00000000#32 + _) = _
  rw [Ideal.ofBits_zero_f32, zero_add, zero_add]
  refine congrArg₂ (· + ·) (Finset.sum_congr rfl fun r _ => ?_) (Finset.sum_congr rfl fun r _ => ?_)
  · rw [at18, onehot0]
  · rw [at19, onehot1]

/-- What follows the two tables in the reference is the common end: the class means, -/
theorem means_eq (x0 x1 : Labels) :
    val_main_v30 (F := Ideal) x0 x1
      = Dice.classMean bcast_S_S8x8 reducesTo_S8x8_S8_d0 h_S_ bcast_S_S8 (val_main_v17 (F := Ideal) x0 x1) (val_main_v20 (F := Ideal) x0 x1) := rfl

/-- and their weighted sum. -/
theorem loss_eq (x0 x1 : Labels) (x2 : (⟨S8, .f32⟩ : BufTy).Contents (Elt Ideal)) :
    val_main_v32 (F := Ideal) x0 x1 x2 = Dice.weighted reducesTo_S8_S_d0 h_S_ x2 (val_main_v30 (F := Ideal) x0 x1) := rfl

end Cert.ReferenceIdeal.RefValue

end
-- ==== Proof.lean ====
/-
  A multiclass Dice loss computed by a tiled kernel, against the plain one-hot computation.

  Inputs: two integer label arrays of 8 samples × 512 × 512 pixels (predicted, target) and 8 class weights. Both programs form,
  for each sample n and class k = 0 … 7,
      overlap (n, k) = number of pixels where both labels are k,
      count   (n, k) = number of pixels predicted k  +  number of pixels whose target is k,
  then  dice = (2 · overlap + ε) / (count + ε),  its mean over the samples per class, and the weighted sum of the class means.

  The kernel flattens each sample to 262144 pixels and walks them in 16 blocks of 16384, keeping two [8, 8] tables in place: it
  zeroes them at the first block, adds each block's per-class lane sums, and writes them back once after the last block. The
  reference one-hot encodes everything at once and sums over all pixels. On the extended reals the two tables are the same sums
  of zeros and ones grouped differently (16 blocks of 16384 against one sum of 262144; a sum over blocks of (A + B) against
  (sum of A) + (sum of B)): commutativity and associativity of addition, which hold there without any finiteness — so the
  precondition is never opened. After the tables both programs apply the same host operations with the same constants in the
  same order; that end is one definition, and equal tables give equal results through it by congruence.

  The modules: Spec (the two tables, the common end) · LibBlockSum, LibKeepdims (general facts) · BlockPieces (what one grid
  point leaves in the two buffers) · BlockValue (a block's sums entry by entry) · Totals (the buffers after every point, by
  induction; the result arrays) · KernelArrays (totals = the tables) · Flattened (the arrays the region reads) · KernelRun (the
  kernel's run with its host lines) · RefValue (the reference computes the tables and the common end).

  The three programs each terminate without fault and leave their arguments unchanged: for the two kernels by their run
  through the region, for the reference by its straight-line run. The idealized kernel is the kernel's own text read on the
  extended reals: no operation was rewritten, so there is nothing to preserve.
-/
import proofs.«131166_j59442347376955_2_alg».proof.Defs
import proofs.«131166_j59442347376955_2_alg».proof.Proof.Gen.Kernel
import proofs.«131166_j59442347376955_2_alg».proof.Proof.Gen.Kernel.Skeleton
import proofs.«131166_j59442347376955_2_alg».proof.Proof.Gen.Kernel.Launch
import proofs.«131166_j59442347376955_2_alg».proof.Proof.Gen.Kernel.Points
import proofs.«131166_j59442347376955_2_alg».proof.Proof.Gen.Kernel.Frame
import proofs.«131166_j59442347376955_2_alg».proof.Proof.Gen.KernelIdeal
import proofs.«131166_j59442347376955_2_alg».proof.Proof.Gen.KernelIdeal.Skeleton
import proofs.«131166_j59442347376955_2_alg».proof.Proof.Gen.KernelIdeal.Launch
import proofs.«131166_j59442347376955_2_alg».proof.Proof.Gen.KernelIdeal.Points
import proofs.«131166_j59442347376955_2_alg».proof.Proof.Gen.KernelIdeal.Frame
import proofs.«131166_j59442347376955_2_alg».proof.Proof.Gen.ReferenceIdeal
import proofs.«131166_j59442347376955_2_alg».proof.Proof.Gen.ReferenceIdeal.Run
import proofs.«131166_j59442347376955_2_alg».proof.Proof.Gen.ReferenceIdeal.Read
import proofs.«131166_j59442347376955_2_alg».proof.Proof.Gen.Pre_finite_inputs
import proofs.«131166_j59442347376955_2_alg».proof.Proof.KernelRun
import proofs.«131166_j59442347376955_2_alg».proof.Proof.KernelArrays
import proofs.«131166_j59442347376955_2_alg».proof.Proof.Flattened
import proofs.«131166_j59442347376955_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its two results forgotten. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The kernel's class means are the common end over the specification's tables of the flattened label arguments. -/
theorem kernel_means (m : (ℓ : Loc Cert.KernelIdeal.nD Cert.KernelIdeal.τ Cert.KernelIdeal.sig) → Buf (Elt Ideal) ℓ)
    (c : Dev Cert.KernelIdeal.nD) :
    Cert.KernelIdeal.Total.means m c
      = Dice.classMean Cert.KernelIdeal.Gen.bcast_S_S8x8 Cert.KernelIdeal.Gen.reducesTo_S8x8_S8_d0 Cert.KernelIdeal.Gen.h_S_
          Cert.KernelIdeal.Gen.bcast_S_S8
          (Dice.overlap (Cert.KernelIdeal.Gen.V m c Cert.KernelIdeal.main_v0) (Cert.KernelIdeal.Gen.V m c Cert.KernelIdeal.main_v1))
          (Dice.count (Cert.KernelIdeal.Gen.V m c Cert.KernelIdeal.main_v0) (Cert.KernelIdeal.Gen.V m c Cert.KernelIdeal.main_v1)) :=
  congrArg₂ (Dice.classMean _ _ _ _) (Cert.KernelIdeal.Total.overlapTotal_eq m c) (Cert.KernelIdeal.Total.countTotal_eq m c)

/-- From memories that agree on the three arguments the reference's class means are the kernel's: both are the common end over
    the same two tables of the same flattened label arrays. -/
theorem means_agree (m : (ℓ : Loc Cert.KernelIdeal.nD Cert.KernelIdeal.τ Cert.KernelIdeal.sig) → Buf (Elt Ideal) ℓ)
    (c : Dev Cert.KernelIdeal.nD) :
    Cert.ReferenceIdeal.Read.val_main_v30 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Total.means m c := by
  rw [Cert.ReferenceIdeal.RefValue.means_eq, Cert.ReferenceIdeal.RefValue.overlap_eq, Cert.ReferenceIdeal.RefValue.count_eq,
    kernel_means, Cert.KernelIdeal.Total.flat0, Cert.KernelIdeal.Total.flat1]
  rfl

theorem algebraic : Cert.algebraic_KernelIdeal_ReferenceIdeal := by
  intro m ρ m' ρ' _ hagree
  refine ⟨_, _, Cert.KernelIdeal.Total.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v32_eq, Cert.ReferenceIdeal.RefValue.loss_eq, (hagree c).1, (hagree c).2.1,
      (hagree c).2.2, means_agree m c]
  · rw [Cert.ReferenceIdeal.Read.val_main_v30_eq, (hagree c).1, (hagree c).2.1, means_agree m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
